-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x2048x1024 : Shape := ⟨3, ![4, 2048, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x256x1024, .f32⟩
  | .local _ .vmem, ⟨6, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S1024x1024_S1024_d1 : S1024x1024.ReducesTo [1] S1024
  h_S_ : 0 < S_.numel
  shapeCasts_S1024_S1x1024 : S1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  shapeCasts_S256x1024_S1x256x1024 : S256x1024.ShapeCasts S1x256x1024
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S4x2048x1024.size a
  hwx0_3 : ∀ i : grid0.Coords, EltTy.bits .f32 = 32 ∨ (Rect.block (s := S4x2048x1024) S1x256x1024.size (cc0_transform_3 i) (hinb0_3 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .i1⟩
  | .hbm, ⟨26, _⟩ => ⟨S_, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S_, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x2048, .f32⟩
  | .hbm, ⟨46, _⟩ => ⟨S4x2048x2048, .f32⟩
  | .hbm, ⟨47, _⟩ => ⟨S4x2048x1024, .f32⟩
  | .hbm, ⟨48, _⟩ => ⟨S_, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S4x2048x1_S4x2048x1024_0_1_2 : S4x2048x1.BroadcastsInDim S4x2048x1024 (![0, 1, 2] : Fin 3 → Fin S4x2048x1024.rank)
  bcast_S_S4x2048x1 : S_.BroadcastsInDim S4x2048x1 (![] : Fin 0 → Fin S4x2048x1.rank)
  bcast_S_S4x2048x1024 : S_.BroadcastsInDim S4x2048x1024 (![] : Fin 0 → Fin S4x2048x1024.rank)
  dot_S4x2048x1024_S4x2048x1024_S4x2048x2048_2_2_1_1_0_0_wf : DotDims.WF S4x2048x1024 S4x2048x1024 S4x2048x2048 [2] [2] [1] [1] [0] [0]
  dot_S4x2048x1024_S1024x1024_S4x2048x1024_2_1_01_0_n_n_wf : DotDims.WF S4x2048x1024 S1024x1024 S4x2048x1024 [2] [1] [0, 1] [0] [] []
  dot_S4x2048x2048_S4x2048x1024_S4x2048x1024_2_1_1_2_0_0_wf : DotDims.WF S4x2048x2048 S4x2048x1024 S4x2048x1024 [2] [1] [1] [2] [0] [0]

variable [Facts₀]

def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelFrame.lean ====
/-
  The frame run of `Kernel`, for every float instance `F`.

  The pallas_call hands ONE array, the first argument, to two input windows: window 0 reads it in blocks of 256 rows of
  one batch (the queries of a grid point), window 1 reads the whole 2048 rows of that batch (the keys and values). The
  pipeline therefore holds that array's buffer twice, once per window, and each window can only hold a share of it: the
  left half of the full share for window 0 and the right half for window 1. Both windows only read, so the halves are
  enough, and they are cut from the one full points-to that @main hands over at the call.

  The body, at every grid point, loads the three input blocks whole, computes, and overwrites the output block whole with
  one store; nothing is kept between points. What the output window's buffer holds after the body is therefore the one
  stored payload, a function of the three input blocks at that point.
-/
import proofs.«137509_j57973468561852_1_alg».proof.Proof.Gen.Kernel.Launch
import proofs.«137509_j57973468561852_1_alg».proof.Proof.Gen.Kernel.Skeleton
import proofs.«137509_j57973468561852_1_alg».proof.Proof.Gen.Kernel.Points
import Idealize.ShloMosaic.Lib.Pipeline.FrameBody
import Idealize.ShloMosaic.Lib.Pipeline.Launch
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch memory after the three host operations
    (the zero constant, the row sums of the second argument, their reshape to one row). -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes the second argument either. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the point fetched it or the
    block index has not moved since the fetch, for any proof data over the region-entry arrays whose body leaves the block
    in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rQ : Rect S1x256x1024 := Rect.unit (s := S1x256x1024) ![0, 0, 0] S1x256x1024.size inb_S1x256x1024_S1x256x1024_0_0_0
abbrev rKV : Rect S1x2048x1024 := Rect.unit (s := S1x2048x1024) ![0, 0, 0] S1x2048x1024.size inb_S1x2048x1024_S1x2048x1024_0_0_0
abbrev rRow : Rect S1x1024 := Rect.unit (s := S1x1024) ![0, 0] S1x1024.size inb_S1x1024_S1x1024_0_0

/-- The output window's buffer after the body, from the three input blocks: its one store, of the whole block. -/
def outBlock (x0 : Vec F S1x256x1024 .f32) (x1 : Vec F S1x2048x1024 .f32) (x2 : Vec F S1x1024 .f32) : Vec F S1x256x1024 .f32 :=
  View.canon [⟨rQ, k0_pay1 (k0_pay5 (View.ld x0 rQ) (View.ld x1 rKV)) (k0_pay6 (View.ld x0 rQ) (View.ld x1 rKV) (View.ld x2 rRow))⟩]

/-- The one store covers the buffer. -/
theorem cover_out (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

/-! ## The body's triple -/

set_option maxHeartbeats 1000000 in
/-- The body on whole staging memrefs, the inputs' at contents `x0`, `x1`, `x2` and the output's at anything, runs to the
    continuation holding the inputs' as they were and the output's at `outBlock` of the inputs'. -/
theorem sound_kernel (c : Dev nD) (E : Set ℕ) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x256x1024 .f32) (harg5 : arg5.IsWhole)
    (x0 : Vec F S1x256x1024 .f32) (x1 : Vec F S1x2048x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlock x0 x1 x2)) -∗ K ⟨⟩))
      ⊢ wp frame (wpE (defs₀ (F := F)) Variants.none c none) E (cc0__casimir_kernel i arg2 harg2 arg3 harg3 arg4 harg4 arg5 harg5) K := by
  simp only [cc0__casimir_kernel_eq_skeleton]; unfold cc0__casimir_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data on core `c`: the arrays as the region finds them; after the body at point `t` each input's buffer at its
    block and the output's at `outBlock` of the three input blocks; nothing carried between points beyond the core's scoped
    buffers that are no staging buffer; nothing owed. The first argument's array is held at the left half share by window 0
    and at the right half share by window 1; the row of sums and the result at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The shared array, split between its two windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The three distinct buffers behind the four windows' arrays, each whole at the full share at the region-entry contents,
    give the pipeline its four arrays: the first argument's full share is cut into its two halves, one per reading window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_v1, main_v2] (by decide) (by decide), bigSep_W0]
  simp only [bigSepL_cons_cons, bigSepL_singleton]
  rw [(arr_whole0 0).set_eq_univ, (arr_whole0 2).set_eq_univ, (arr_whole0 3).set_eq_univ,
    share0, share1, share2, share3]
  refine (sep_mono (pointsTo_share (PosShare.mem_left_op_right fullShare)).1 .rfl).trans ?_
  show iprop(((((c.tc : Thread nD τ).loc main_arg0) ↦{fullShare.left} V m c main_arg0) ∗ (((c.tc : Thread nD τ).loc main_arg0) ↦{fullShare.right} V m c main_arg0))
      ∗ (((c.tc : Thread nD τ).loc main_v1) ↦{fullShare} V m c main_v1) ∗ (((c.tc : Thread nD τ).loc main_v2) ↦{fullShare} V m c main_v2))
    ⊢ iprop((((c.tc : Thread nD τ).loc main_arg0) ↦{fullShare.left} V m c main_arg0) ∗ (((c.tc : Thread nD τ).loc main_arg0) ↦{fullShare.right} V m c main_arg0)
      ∗ (((c.tc : Thread nD τ).loc main_v1) ↦{fullShare} V m c main_v1) ∗ (((c.tc : Thread nD τ).loc main_v2) ↦{fullShare} V m c main_v2))
  iintro ⟨⟨Hl, Hr⟩, Hw, Ho⟩
  isplitl [Hl]; · iexact Hl
  isplitl [Hr]; · iexact Hr
  isplitl [Hw]; · iexact Hw
  iexact Ho

/-! ## The run and the frame -/

/-- At the compiled mesh, for any float values, from any memory with zero counters: every weakly fair execution of @main on
    the TensorCores terminates, and every final state has each window's array at what the write-backs of the proof data
    make of it, and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last cfg0.N) = Pipeline.scopedRest (Ix := Unit) (Name := ℕ) (U := UR sig nD τ) (Lvl := ℕ) (Val := Elt F) spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs to the end without a fault and its two argument arrays end as they were launched. The first
    is an input window's array, never written back; the second bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.Kernel.Frame

end
-- ==== Proof.KernelIdealFrame.lean ====
/-
  The frame run of `KernelIdeal`, for every float instance `F`.

  The pallas_call hands ONE array, the first argument, to two input windows: window 0 reads it in blocks of 256 rows of
  one batch (the queries of a grid point), window 1 reads the whole 2048 rows of that batch (the keys and values). The
  pipeline therefore holds that array's buffer twice, once per window, and each window can only hold a share of it: the
  left half of the full share for window 0 and the right half for window 1. Both windows only read, so the halves are
  enough, and they are cut from the one full points-to that @main hands over at the call.

  The body, at every grid point, loads the three input blocks whole, computes, and overwrites the output block whole with
  one store; nothing is kept between points. What the output window's buffer holds after the body is therefore the one
  stored payload, a function of the three input blocks at that point.
-/
import proofs.«137509_j57973468561852_1_alg».proof.Proof.Gen.KernelIdeal.Launch
import proofs.«137509_j57973468561852_1_alg».proof.Proof.Gen.KernelIdeal.Skeleton
import proofs.«137509_j57973468561852_1_alg».proof.Proof.Gen.KernelIdeal.Points
import Idealize.ShloMosaic.Lib.Pipeline.FrameBody
import Idealize.ShloMosaic.Lib.Pipeline.Launch
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch memory after the three host operations
    (the zero constant, the row sums of the second argument, their reshape to one row). -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes the second argument either. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the point fetched it or the
    block index has not moved since the fetch, for any proof data over the region-entry arrays whose body leaves the block
    in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rQ : Rect S1x256x1024 := Rect.unit (s := S1x256x1024) ![0, 0, 0] S1x256x1024.size inb_S1x256x1024_S1x256x1024_0_0_0
abbrev rKV : Rect S1x2048x1024 := Rect.unit (s := S1x2048x1024) ![0, 0, 0] S1x2048x1024.size inb_S1x2048x1024_S1x2048x1024_0_0_0
abbrev rRow : Rect S1x1024 := Rect.unit (s := S1x1024) ![0, 0] S1x1024.size inb_S1x1024_S1x1024_0_0

/-- The output window's buffer after the body, from the three input blocks: its one store, of the whole block. -/
def outBlock (x0 : Vec F S1x256x1024 .f32) (x1 : Vec F S1x2048x1024 .f32) (x2 : Vec F S1x1024 .f32) : Vec F S1x256x1024 .f32 :=
  View.canon [⟨rQ, k0_pay1 (k0_pay5 (View.ld x0 rQ) (View.ld x1 rKV)) (k0_pay6 (View.ld x0 rQ) (View.ld x1 rKV) (View.ld x2 rRow))⟩]

/-- The one store covers the buffer. -/
theorem cover_out (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

/-! ## The body's triple -/

set_option maxHeartbeats 1000000 in
/-- The body on whole staging memrefs, the inputs' at contents `x0`, `x1`, `x2` and the output's at anything, runs to the
    continuation holding the inputs' as they were and the output's at `outBlock` of the inputs'. -/
theorem sound_kernel (c : Dev nD) (E : Set ℕ) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x256x1024 .f32) (harg5 : arg5.IsWhole)
    (x0 : Vec F S1x256x1024 .f32) (x1 : Vec F S1x2048x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlock x0 x1 x2)) -∗ K ⟨⟩))
      ⊢ wp frame (wpE (defs₀ (F := F)) Variants.none c none) E (cc0__casimir_kernel i arg2 harg2 arg3 harg3 arg4 harg4 arg5 harg5) K := by
  simp only [cc0__casimir_kernel_eq_skeleton]; unfold cc0__casimir_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data on core `c`: the arrays as the region finds them; after the body at point `t` each input's buffer at its
    block and the output's at `outBlock` of the three input blocks; nothing carried between points beyond the core's scoped
    buffers that are no staging buffer; nothing owed. The first argument's array is held at the left half share by window 0
    and at the right half share by window 1; the row of sums and the result at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The shared array, split between its two windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The three distinct buffers behind the four windows' arrays, each whole at the full share at the region-entry contents,
    give the pipeline its four arrays: the first argument's full share is cut into its two halves, one per reading window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_v1, main_v2] (by decide) (by decide), bigSep_W0]
  simp only [bigSepL_cons_cons, bigSepL_singleton]
  rw [(arr_whole0 0).set_eq_univ, (arr_whole0 2).set_eq_univ, (arr_whole0 3).set_eq_univ,
    share0, share1, share2, share3]
  refine (sep_mono (pointsTo_share (PosShare.mem_left_op_right fullShare)).1 .rfl).trans ?_
  show iprop(((((c.tc : Thread nD τ).loc main_arg0) ↦{fullShare.left} V m c main_arg0) ∗ (((c.tc : Thread nD τ).loc main_arg0) ↦{fullShare.right} V m c main_arg0))
      ∗ (((c.tc : Thread nD τ).loc main_v1) ↦{fullShare} V m c main_v1) ∗ (((c.tc : Thread nD τ).loc main_v2) ↦{fullShare} V m c main_v2))
    ⊢ iprop((((c.tc : Thread nD τ).loc main_arg0) ↦{fullShare.left} V m c main_arg0) ∗ (((c.tc : Thread nD τ).loc main_arg0) ↦{fullShare.right} V m c main_arg0)
      ∗ (((c.tc : Thread nD τ).loc main_v1) ↦{fullShare} V m c main_v1) ∗ (((c.tc : Thread nD τ).loc main_v2) ↦{fullShare} V m c main_v2))
  iintro ⟨⟨Hl, Hr⟩, Hw, Ho⟩
  isplitl [Hl]; · iexact Hl
  isplitl [Hr]; · iexact Hr
  isplitl [Hw]; · iexact Hw
  iexact Ho

/-! ## The run and the frame -/

/-- At the compiled mesh, for any float values, from any memory with zero counters: every weakly fair execution of @main on
    the TensorCores terminates, and every final state has each window's array at what the write-backs of the proof data
    make of it, and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last cfg0.N) = Pipeline.scopedRest (Ix := Unit) (Name := ℕ) (U := UR sig nD τ) (Lvl := ℕ) (Val := Elt F) spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs to the end without a fault and its two argument arrays end as they were launched. The first
    is an input window's array, never written back; the second bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.Frame

end
-- ==== Proof.Frames.lean ====
/-
  The three frames and the idealization conjunct.

  Each program runs to the end without a fault and leaves its two argument arrays as launched. For the two kernel programs
  this is the frame run of the pallas_call (the first argument is only read, by two windows sharing it; the second only
  feeds a host row sum); for the reference it is its run with the result dropped. The idealization rewrote nothing, so
  its conjunct is trivially true.
-/
import proofs.«137509_j57973468561852_1_alg».proof.Defs
import proofs.«137509_j57973468561852_1_alg».proof.Proof.KernelFrame
import proofs.«137509_j57973468561852_1_alg».proof.Proof.KernelIdealFrame
import proofs.«137509_j57973468561852_1_alg».proof.Proof.Gen.ReferenceIdeal.Run
import proofs.«137509_j57973468561852_1_alg».proof.Proof.Gen.Pre_finite_inputs

noncomputable section

namespace Cert.Proof.Frames

open Idealize.ShloMosaic Idealize.ShloMosaic.TcCoe Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof.Frames

end
-- ==== Proof.Consts.lean ====
/-
  The float words the two programs spell, as the extended reals they denote, and the two identities between the
  reference's host arithmetic on them and the kernel's folded literal.

  The reference scales the scores by 1 / sqrt(1024) computed on the host; 1024 is the square of 32, so the square root is 32
  exactly and the quotient is 1/32, which is the dyadic the kernel's literal 0.03125 denotes. The reference also takes the
  maximum of each row's maximum with minus infinity once more; minus infinity is the bottom of the extended reals, so that
  changes nothing.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The square root of 1024 is 32. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num)]
  congr 1
  rw [show (1024 : ℝ) = 32 ^ 2 by norm_num]
  exact Real.sqrt_sq (by norm_num)

/-- The host's 1 / sqrt(1024) is the kernel's literal 1/32. -/
theorem scale_eq :
    Ideal.div (Ideal.ofBits .f32 0x3F800000#32) (Ideal.sqrt (Ideal.ofBits .f32 0x44800000#32)) = Ideal.ofBits .f32 0x3D000000#32 := by
  rw [ofBits_1024, sqrt_1024, ofBits_one, ofBits_inv32, Ideal.div_coe (by norm_num : (32 : ℝ) ≠ 0), ← EReal.coe_mul]
  congr 1
  norm_num

/-- Taking the maximum with minus infinity changes nothing. -/
theorem max_neg_inf (a : EReal) : max (Ideal.ofBits .f32 0xFF800000#32) a = a := by
  rw [ofBits_neg_inf]; exact max_eq_right bot_le

end Cert.Consts

end
-- ==== Proof.Row.lean ====
/-
  One row of the attention, as pure functions of the row of scores, and the one law between the two programs' last terms.

  For a query row with scores σ(s) over the keys s: the row maximum M (from minus infinity), the exponentials
  e(s) = exp(σ(s) - M), their sum Z, the probabilities p(s) = e(s) / Z, the mask p(s) < θ, the masked-out mass
  vac = Σ_s [p(s) < θ] p(s), the kept probabilities k(s) = [p(s) ≥ θ] p(s), renormalised by Σ_s k(s) + ε.

  The kernel multiplies vac by the row sum of a weight row; the reference sums vac times each weight. On the extended reals
  a product distributes over a sum only away from the infinities, so the law needs vac and the weights to be real numbers.
  The weights are, by the precondition. And vac is: when the scores are real, M is the largest of finitely many reals (the row
  is not empty), each e(s) is a positive real, Z a positive real, each p(s) a real, and vac a finite sum of reals and zeros.
-/
import Idealize.ShloMosaic.PureOps.Ideal
import proofs.«137509_j57973468561852_1_alg».proof.Proof.Consts

noncomputable section

namespace Cert.Row

open Idealize.ShloMosaic Cert.Consts

variable {ι : Type} [Fintype ι]

/-- minus infinity, zero, the threshold 0.01 and the 1e-9 of the renormalisation, as the programs spell them -/
abbrev negInf : EReal := Ideal.ofBits .f32 0xFF800000#32
abbrev zeroW : EReal := Ideal.ofBits .f32 0x00000000#32
abbrev thr : EReal := Ideal.ofBits .f32 0x3C23D70A#32
abbrev eps : EReal := Ideal.ofBits .f32 0x3089705F#32

/-- the row maximum, from minus infinity -/
def rmax (σ : ι → EReal) : EReal := Finset.univ.fold max negInf σ
/-- the exponentials of the scores less the maximum -/
def ex (σ : ι → EReal) (s : ι) : EReal := Ideal.exp (σ s - rmax σ)
/-- the probabilities -/
def pr (σ : ι → EReal) (s : ι) : EReal := Ideal.div (ex σ s) (∑ k, ex σ k)
/-- the mask: the probability is below the threshold -/
def msk (σ : ι → EReal) (s : ι) : BitVec 1 := Ideal.cmp .olt (pr σ s) thr
/-- the mass of the probabilities below the threshold -/
def vac (σ : ι → EReal) : EReal := ∑ s, Scalar.select (msk σ s) (pr σ s) zeroW
/-- the probabilities kept -/
def kept (σ : ι → EReal) (s : ι) : EReal := Scalar.select (msk σ s) zeroW (pr σ s)
/-- the kept probabilities renormalised -/
def keptN (σ : ι → EReal) (s : ι) : EReal := Ideal.div (kept σ s) ((∑ k, kept σ k) + eps)

/-! ## Finiteness -/

/-- A finite sum of real numbers, taken on the extended reals, is the real sum. -/
theorem coe_sum {κ : Type} (S : Finset κ) (f : κ → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The maximum of finitely many reals from minus infinity is minus infinity for none of them and a real otherwise. -/
theorem fold_max_real {κ : Type} [DecidableEq κ] (S : Finset κ) (ρ : κ → ℝ) :
    (S = ∅ ∧ S.fold max (⊥ : EReal) (fun s => (ρ s : EReal)) = ⊥) ∨ ∃ M : ℝ, S.fold max (⊥ : EReal) (fun s => (ρ s : EReal)) = (M : EReal) := by
  induction S using Finset.induction_on with
  | empty => exact .inl ⟨rfl, Finset.fold_empty⟩
  | insert a S ha ih =>
    right
    rw [Finset.fold_insert ha]
    rcases ih with ⟨-, h⟩ | ⟨M, h⟩
    · exact ⟨ρ a, by rw [h]; exact max_eq_left bot_le⟩
    · exact ⟨max (ρ a) M, by rw [h]; exact (EReal.coe_strictMono.monotone.map_max).symm⟩

variable [Nonempty ι]

/-- The row maximum of a row of reals is a real. -/
theorem rmax_real (ρ : ι → ℝ) : ∃ M : ℝ, rmax (fun s => (ρ s : EReal)) = (M : EReal) := by
  classical
  unfold rmax
  rw [show negInf = (⊥ : EReal) from ofBits_neg_inf]
  rcases fold_max_real (Finset.univ : Finset ι) ρ with ⟨h, -⟩ | h
  · exact absurd h Finset.univ_nonempty.ne_empty
  · exact h

/-- The masked-out mass of a row of real scores is a real. -/
theorem vac_real (ρ : ι → ℝ) : ∃ v : ℝ, vac (fun s => (ρ s : EReal)) = (v : EReal) := by
  classical
  obtain ⟨M, hM⟩ := rmax_real ρ
  have hex : ∀ s, ex (fun s => (ρ s : EReal)) s = ((Real.exp (ρ s - M) : ℝ) : EReal) := fun s => by
    unfold ex; rw [hM, ← EReal.coe_sub]; rfl
  have hZ : (∑ k, ex (fun s => (ρ s : EReal)) k) = ((∑ k, Real.exp (ρ k - M) : ℝ) : EReal) := by
    rw [← coe_sum]; exact Finset.sum_congr rfl fun k _ => hex k
  have hZpos : (0 : ℝ) < ∑ k : ι, Real.exp (ρ k - M) :=
    Finset.sum_pos (fun k _ => Real.exp_pos _) Finset.univ_nonempty
  have hpr : ∀ s, pr (fun s => (ρ s : EReal)) s = ((Real.exp (ρ s - M) * (1 / ∑ k, Real.exp (ρ k - M)) : ℝ) : EReal) := fun s => by
    unfold pr; rw [hZ, hex, Ideal.div_coe hZpos.ne', ← EReal.coe_mul]
  have hsel : ∀ s, ∃ r : ℝ, Scalar.select (msk (fun s => (ρ s : EReal)) s) (pr (fun s => (ρ s : EReal)) s) zeroW = (r : EReal) := fun s => by
    unfold Scalar.select
    split
    · exact ⟨_, hpr s⟩
    · exact ⟨0, by rw [show zeroW = (0 : EReal) from ofBits_zero]; rfl⟩
  choose r hr using hsel
  exact ⟨∑ s, r s, by unfold vac; rw [← coe_sum]; exact Finset.sum_congr rfl fun s _ => hr s⟩

/-! ## The law -/

/-- A real factor distributes over a finite sum of reals taken from zero: the masked-out mass times the sum of a weight
    row is the sum of its products with the weights. -/
theorem vac_mul_sum {κ : Type} [Fintype κ] (ρ : ι → ℝ) (W : κ → ℝ) :
    vac (fun s => (ρ s : EReal)) * (zeroW + ∑ d, (W d : EReal)) = ∑ d, vac (fun s => (ρ s : EReal)) * (W d : EReal) := by
  obtain ⟨v, hv⟩ := vac_real ρ
  rw [hv, show zeroW = (0 : EReal) from ofBits_zero, zero_add, coe_sum, ← EReal.coe_mul, Finset.mul_sum, ← coe_sum]
  exact Finset.sum_congr rfl fun d _ => EReal.coe_mul _ _

end Cert.Row

end
-- ==== Proof.KernelBlock.lean ====
/-
  The kernel's body at one grid point, read index by index on the extended reals.

  The body sees a block q of 256 query rows, the block k of all 2048 key rows of the same batch (it is also the values) and
  one row w of weight sums. Row r of the scores is σ_r(s) = (Σ_d q[r,d] · k[s,d]) / 32; everything up to the last line is
  the row chain of that row of scores; the result at (r, o) is Σ_s keptN(σ_r)(s) · k[s,o] + (vac(σ_r) · w[o]) · 0.01.
-/
import proofs.«137509_j57973468561852_1_alg».proof.Proof.Gen.KernelIdeal.Skeleton
import proofs.«137509_j57973468561852_1_alg».proof.Proof.Row
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen
open Idealize.ShloMosaic Idealize.ShloMosaic.ValueIdx Cert.Row

/-! ## A lane reduction put back as a column -/

/-- The index a reduction over the lane axis inserts a lane coordinate into. -/
theorem lift_row (r : Fin 256) (k : Fin 2048) :
    reduces_S256x2048_S256.lift (ix1 r) k = (ix2 r k : S256x2048.Idx) :=
  funext fun a => Fin.ext (by match a with | ⟨0, _⟩ => rfl | ⟨1, _⟩ => rfl)

/-- A vector of 256 read as a column of a 256 × 1 matrix. -/
theorem col_apply (x : S256.Idx → EReal) (r : Fin 256) (u : Fin 1) :
    shapeCast S256x1 x shapeCasts_S256_S256x1 (ix2 r u) = x (ix1 r) :=
  shapeCast_apply x _ _ _ (by
    have hu : u.val = 0 := by omega
    rw [Shape.rowMajor_val_two, Shape.rowMajor_val_one]
    show r.val = r.val * 1 + u.val
    rw [hu]; omega)

/-- A 256 × 1 column spread over 2048 lanes. -/
theorem spread2048_apply (x : S256x1.Idx → EReal) (r : Fin 256) (s : Fin 2048) :
    broadcastTo S256x2048 x broadcasts_S256x1_S256x2048 (ix2 r s) = x (ix2 r (0 : Fin 1)) :=
  broadcastTo_apply x _ _ _ (fun a => by match a with | ⟨0, _⟩ => rfl | ⟨1, _⟩ => rfl)

/-- A 256 × 1 column spread over 1024 lanes. -/
theorem spread1024_apply (x : S256x1.Idx → EReal) (r : Fin 256) (o : Fin 1024) :
    broadcastTo S256x1024 x broadcasts_S256x1_S256x1024 (ix2 r o) = x (ix2 r (0 : Fin 1)) :=
  broadcastTo_apply x _ _ _ (fun a => by match a with | ⟨0, _⟩ => rfl | ⟨1, _⟩ => rfl)

/-- A 1 × 1024 row spread over 256 rows. -/
theorem spreadRows_apply (x : S1x1024.Idx → EReal) (r : Fin 256) (o : Fin 1024) :
    broadcastTo S256x1024 x broadcasts_S1x1024_S256x1024 (ix2 r o) = x (ix2 (0 : Fin 1) o) :=
  broadcastTo_apply x _ _ _ (fun a => by match a with | ⟨0, _⟩ => rfl | ⟨1, _⟩ => rfl)

/-- The lane sum of row r. -/
theorem laneSum_apply (v : FVec Ideal S256x2048 .f32) (r : Fin 256) :
    multiReduction .add [1] S256 v 0x00000000#32 reduces_S256x2048_S256 (.inl rfl) rfl (ix1 r) = ∑ k : Fin 2048, v (ix2 r k) := by
  refine (Ideal.multiReduction_add_single v 0x00000000#32 reduces_S256x2048_S256 (.inl rfl) rfl (ix1 r)).trans ?_
  exact Finset.sum_congr rfl fun k _ => congrArg v (lift_row r k)

/-- The lane maximum of row r, from minus infinity. -/
theorem laneMax_apply (v : FVec Ideal S256x2048 .f32) (r : Fin 256) :
    multiReduction .maximumf [1] S256 v 0xFF800000#32 reduces_S256x2048_S256 (.inl rfl) rfl (ix1 r) = rmax fun k : Fin 2048 => v (ix2 r k) := by
  refine (Ideal.multiReduction_maximumf_single v 0xFF800000#32 reduces_S256x2048_S256 (.inl rfl) rfl (ix1 r)).trans ?_
  unfold rmax
  exact congrArg (Finset.univ.fold max _) (funext fun k => congrArg v (lift_row r k))

/-! ## The two matrix products at an index -/

theorem dA_lhs0 (i : S256x2048.Idx) (q : dot_S256x1024_S2048x1024_S256x2048_1_1_0_0_n_n.contr.Idx) : (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem dA_lhs1 (i : S256x2048.Idx) (q : dot_S256x1024_S2048x1024_S256x2048_1_1_0_0_n_n.contr.Idx) : (dot_S256x1024_S2048x1024_S256x2048_1_1_0_0_n_n.lhsIdx i q 1).val = (q ⟨0, by decide⟩).val :=
  dot_S256x1024_S2048x1024_S256x2048_1_1_0_0_n_n.lhsIdx_val_of_single rfl i q
theorem dA_rhs0 (i : S256x2048.Idx) (q : dot_S256x1024_S2048x1024_S256x2048_1_1_0_0_n_n.contr.Idx) : (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem dA_rhs1 (i : S256x2048.Idx) (q : dot_S256x1024_S2048x1024_S256x2048_1_1_0_0_n_n.contr.Idx) : (dot_S256x1024_S2048x1024_S256x2048_1_1_0_0_n_n.rhsIdx i q 1).val = (q ⟨0, by decide⟩).val :=
  dot_S256x1024_S2048x1024_S256x2048_1_1_0_0_n_n.rhsIdx_val_of_single rfl i q

/-- Queries times keys, transposed: entry (r, s) is the sum over the 1024 features of q[r,d] · k[s,d]. -/
theorem qk_apply (q : FVec Ideal S256x1024 .bf16) (k : FVec Ideal S2048x1024 .bf16) (r : Fin 256) (s : Fin 2048) :
    matmul dot_S256x1024_S2048x1024_S256x2048_1_1_0_0_n_n none q k (constant S256x2048 .f32 0x00000000#32) (ix2 r s) = ∑ d : Fin 1024, q (ix2 r d) * k (ix2 s d) := by
  simp only [matmul]
  rw [Ideal.matmul_constant_zero_apply, ← Equiv.sum_comp (ValueIdx.contrEquiv1 dot_S256x1024_S2048x1024_S256x2048_1_1_0_0_n_n 1024 rfl rfl).symm]
  refine Finset.sum_congr rfl fun d _ => ?_
  have hk := ValueIdx.contrEquiv1_symm_val dot_S256x1024_S2048x1024_S256x2048_1_1_0_0_n_n 1024 rfl rfl d
  have el : dot_S256x1024_S2048x1024_S256x2048_1_1_0_0_n_n.lhsIdx (ix2 r s) ((ValueIdx.contrEquiv1 dot_S256x1024_S2048x1024_S256x2048_1_1_0_0_n_n 1024 rfl rfl).symm d) = ix2 r d := funext fun a => Fin.ext (by
    match a with
    | ⟨0, _⟩ => exact dA_lhs0 _ _
    | ⟨1, _⟩ => exact (dA_lhs1 _ _).trans hk)
  have er : dot_S256x1024_S2048x1024_S256x2048_1_1_0_0_n_n.rhsIdx (ix2 r s) ((ValueIdx.contrEquiv1 dot_S256x1024_S2048x1024_S256x2048_1_1_0_0_n_n 1024 rfl rfl).symm d) = ix2 s d := funext fun a => Fin.ext (by
    match a with
    | ⟨0, _⟩ => exact dA_rhs0 _ _
    | ⟨1, _⟩ => exact (dA_rhs1 _ _).trans hk)
  rw [el, er]

theorem dB_lhs0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem dB_lhs1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem dB_rhs0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem dB_rhs1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Probabilities times values: entry (r, o) is the sum over the 2048 keys of p[r,s] · k[s,o]. -/
theorem pv_apply (p : FVec Ideal S256x2048 .bf16) (k : FVec Ideal S2048x1024 .bf16) (r : Fin 256) (o : Fin 1024) :
    matmul dot_S256x2048_S2048x1024_S256x1024_1_0_0_1_n_n none p k (constant S256x1024 .f32 0x00000000#32) (ix2 r o) = ∑ s : Fin 2048, p (ix2 r s) * k (ix2 s o) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun s _ => ?_
  have hk := ValueIdx.contrEquiv1_symm_val dot_S256x2048_S2048x1024_S256x1024_1_0_0_1_n_n 2048 rfl rfl s
  have el : dot_S256x2048_S2048x1024_S256x1024_1_0_0_1_n_n.lhsIdx (ix2 r o) ((ValueIdx.contrEquiv1 dot_S256x2048_S2048x1024_S256x1024_1_0_0_1_n_n 2048 rfl rfl).symm s) = ix2 r s := funext fun a => Fin.ext (by
    match a with
    | ⟨0, _⟩ => exact dB_lhs0 _ _
    | ⟨1, _⟩ => exact (dB_lhs1 _ _).trans hk)
  have er : dot_S256x2048_S2048x1024_S256x1024_1_0_0_1_n_n.rhsIdx (ix2 r o) ((ValueIdx.contrEquiv1 dot_S256x2048_S2048x1024_S256x1024_1_0_0_1_n_n 2048 rfl rfl).symm s) = ix2 s o := funext fun a => Fin.ext (by
    match a with
    | ⟨0, _⟩ => exact (dB_rhs0 _ _).trans hk
    | ⟨1, _⟩ => exact dB_rhs1 _ _)
  rw [el, er]

/-! ## The pieces of the body, each read at an index -/

/-- The key/value block with its leading unit axis dropped (a change of float format is the identity here). -/
theorem pay2_apply (x1 : FVec Ideal S1x2048x1024 .f32) (s : Fin 2048) (d : Fin 1024) :
    k0_pay2 (F := Ideal) x1 (ix2 s d) = x1 (ix3 (0 : Fin 1) s d) :=
  shapeCast_1ab_ab_apply x1 _ s d

/-- Row r of the scores: the products of query row r with every key row, over 32. -/
def score (x0 : FVec Ideal S1x256x1024 .f32) (x1 : FVec Ideal S1x2048x1024 .f32) (r : Fin 256) (s : Fin 2048) : EReal :=
  (∑ d : Fin 1024, x0 (ix3 (0 : Fin 1) r d) * x1 (ix3 (0 : Fin 1) s d)) * Ideal.ofBits .f32 0x3D000000#32

/-- The block of scores. -/
def scoreBlock (x0 : FVec Ideal S1x256x1024 .f32) (x1 : FVec Ideal S1x2048x1024 .f32) : FVec Ideal S256x2048 .f32 :=
  mulf (matmul dot_S256x1024_S2048x1024_S256x2048_1_1_0_0_n_n none (truncf .bf16 (shapeCast S256x1024 x0 shapeCasts_S1x256x1024_S256x1024) bitsLt_bf16_f32) (k0_pay2 (F := Ideal) x1) (constant S256x2048 .f32 0x00000000#32))
    (broadcast S256x2048 (Scalar.ofBits .f32 0x3D000000#32))

theorem scoreBlock_apply (x0 : FVec Ideal S1x256x1024 .f32) (x1 : FVec Ideal S1x2048x1024 .f32) (r : Fin 256) (s : Fin 2048) :
    scoreBlock x0 x1 (ix2 r s) = score x0 x1 r s := by
  show matmul dot_S256x1024_S2048x1024_S256x2048_1_1_0_0_n_n none _ _ _ (ix2 r s) * Ideal.ofBits .f32 0x3D000000#32 = _
  rw [qk_apply]
  unfold score
  congr 1
  refine Finset.sum_congr rfl fun d _ => ?_
  rw [pay2_apply]
  congr 1
  exact shapeCast_1ab_ab_apply x0 _ r d

theorem scoreRow (x0 : FVec Ideal S1x256x1024 .f32) (x1 : FVec Ideal S1x2048x1024 .f32) (r : Fin 256) :
    (fun k : Fin 2048 => scoreBlock x0 x1 (ix2 r k)) = score x0 x1 r :=
  funext fun k => scoreBlock_apply x0 x1 r k

/-- Each row's maximum, spread back over the row. -/
def maxCol (v : FVec Ideal S256x2048 .f32) : FVec Ideal S256x2048 .f32 :=
  broadcastTo S256x2048 (shapeCast S256x1 (multiReduction .maximumf [1] S256 v 0xFF800000#32 reduces_S256x2048_S256 (.inl rfl) rfl) shapeCasts_S256_S256x1) broadcasts_S256x1_S256x2048
theorem maxCol_apply (v : FVec Ideal S256x2048 .f32) (r : Fin 256) (s : Fin 2048) : maxCol v (ix2 r s) = rmax fun k : Fin 2048 => v (ix2 r k) := by
  unfold maxCol; rw [spread2048_apply, col_apply, laneMax_apply]

/-- Each row's sum, as a column. -/
def sumCol1 (v : FVec Ideal S256x2048 .f32) : FVec Ideal S256x1 .f32 :=
  shapeCast S256x1 (multiReduction .add [1] S256 v 0x00000000#32 reduces_S256x2048_S256 (.inl rfl) rfl) shapeCasts_S256_S256x1
theorem sumCol1_apply (v : FVec Ideal S256x2048 .f32) (r : Fin 256) : sumCol1 v (ix2 r (0 : Fin 1)) = ∑ k : Fin 2048, v (ix2 r k) := by
  unfold sumCol1; rw [col_apply, laneSum_apply]

/-- The exponentials of the scores less their row maxima. -/
def expBlock (v : FVec Ideal S256x2048 .f32) : FVec Ideal S256x2048 .f32 := exp (subf v (maxCol v))
theorem expBlock_apply (v : FVec Ideal S256x2048 .f32) (r : Fin 256) (s : Fin 2048) : expBlock v (ix2 r s) = ex (fun k : Fin 2048 => v (ix2 r k)) s := by
  show Ideal.exp (v (ix2 r s) - maxCol v (ix2 r s)) = _
  rw [maxCol_apply]; rfl

/-- The probabilities. -/
def probBlock (v : FVec Ideal S256x2048 .f32) : FVec Ideal S256x2048 .f32 :=
  divf (expBlock v) (broadcastTo S256x2048 (sumCol1 (expBlock v)) broadcasts_S256x1_S256x2048)
theorem probBlock_apply (v : FVec Ideal S256x2048 .f32) (r : Fin 256) (s : Fin 2048) : probBlock v (ix2 r s) = pr (fun k : Fin 2048 => v (ix2 r k)) s := by
  show Ideal.div (expBlock v (ix2 r s)) (broadcastTo S256x2048 (sumCol1 (expBlock v)) broadcasts_S256x1_S256x2048 (ix2 r s)) = _
  rw [spread2048_apply, sumCol1_apply, expBlock_apply]
  unfold pr
  exact congrArg (Ideal.div _) (Finset.sum_congr rfl fun k _ => expBlock_apply v r k)

/-- The mask. -/
def maskBlock (v : FVec Ideal S256x2048 .f32) : IVec S256x2048 1 :=
  cmpf .olt (probBlock v) (broadcast S256x2048 (Scalar.ofBits .f32 0x3C23D70A#32))
theorem maskBlock_apply (v : FVec Ideal S256x2048 .f32) (r : Fin 256) (s : Fin 2048) : maskBlock v (ix2 r s) = msk (fun k : Fin 2048 => v (ix2 r k)) s := by
  show Ideal.cmp .olt (probBlock v (ix2 r s)) (Ideal.ofBits .f32 0x3C23D70A#32) = _
  rw [probBlock_apply]; rfl

/-- The masked-out mass of each row, as a column. -/
def vacCol (v : FVec Ideal S256x2048 .f32) : FVec Ideal S256x1 .f32 :=
  sumCol1 (select (maskBlock v) (probBlock v) (broadcast S256x2048 (Scalar.ofBits .f32 0x00000000#32)))
theorem vacCol_apply (v : FVec Ideal S256x2048 .f32) (r : Fin 256) : vacCol v (ix2 r (0 : Fin 1)) = vac (fun k : Fin 2048 => v (ix2 r k)) := by
  unfold vacCol; rw [sumCol1_apply]; unfold vac
  refine Finset.sum_congr rfl fun k _ => ?_
  show Scalar.select (maskBlock v (ix2 r k)) (probBlock v (ix2 r k)) (Ideal.ofBits .f32 0x00000000#32) = _
  rw [maskBlock_apply, probBlock_apply]

/-- The kept probabilities. -/
def keptBlock (v : FVec Ideal S256x2048 .f32) : FVec Ideal S256x2048 .f32 :=
  select (maskBlock v) (broadcast S256x2048 (Scalar.ofBits .f32 0x00000000#32)) (probBlock v)
theorem keptBlock_apply (v : FVec Ideal S256x2048 .f32) (r : Fin 256) (s : Fin 2048) : keptBlock v (ix2 r s) = kept (fun k : Fin 2048 => v (ix2 r k)) s := by
  show Scalar.select (maskBlock v (ix2 r s)) (Ideal.ofBits .f32 0x00000000#32) (probBlock v (ix2 r s)) = _
  rw [maskBlock_apply, probBlock_apply]; rfl

/-- The kept probabilities renormalised. -/
def keptNBlock (v : FVec Ideal S256x2048 .f32) : FVec Ideal S256x2048 .f32 :=
  divf (keptBlock v) (broadcastTo S256x2048 (addf (sumCol1 (keptBlock v)) (broadcast S256x1 (Scalar.ofBits .f32 0x3089705F#32))) broadcasts_S256x1_S256x2048)
theorem keptNBlock_apply (v : FVec Ideal S256x2048 .f32) (r : Fin 256) (s : Fin 2048) : keptNBlock v (ix2 r s) = keptN (fun k : Fin 2048 => v (ix2 r k)) s := by
  show Ideal.div (keptBlock v (ix2 r s)) (broadcastTo S256x2048 (addf (sumCol1 (keptBlock v)) (broadcast S256x1 (Scalar.ofBits .f32 0x3089705F#32))) broadcasts_S256x1_S256x2048 (ix2 r s)) = _
  rw [spread2048_apply]
  show Ideal.div (keptBlock v (ix2 r s)) (sumCol1 (keptBlock v) (ix2 r (0 : Fin 1)) + Ideal.ofBits .f32 0x3089705F#32) = _
  rw [sumCol1_apply, keptBlock_apply]
  unfold keptN
  exact congrArg (fun z => Ideal.div _ (z + _)) (Finset.sum_congr rfl fun k _ => keptBlock_apply v r k)

/-! ## The generated payloads are these pieces composed -/

theorem pay3_eq (x0 : FVec Ideal S1x256x1024 .f32) (x1 : FVec Ideal S1x2048x1024 .f32) : k0_pay3 (F := Ideal) x0 x1 = probBlock (scoreBlock x0 x1) := rfl
theorem pay4_eq (x0 : FVec Ideal S1x256x1024 .f32) (x1 : FVec Ideal S1x2048x1024 .f32) : k0_pay4 (F := Ideal) x0 x1 = maskBlock (scoreBlock x0 x1) := rfl
theorem pay5_eq (x0 : FVec Ideal S1x256x1024 .f32) (x1 : FVec Ideal S1x2048x1024 .f32) :
    k0_pay5 (F := Ideal) x0 x1 = matmul dot_S256x2048_S2048x1024_S256x1024_1_0_0_1_n_n none (truncf .bf16 (keptNBlock (scoreBlock x0 x1)) bitsLt_bf16_f32) (k0_pay2 (F := Ideal) x1) (constant S256x1024 .f32 0x00000000#32) := rfl
theorem pay6_eq (x0 : FVec Ideal S1x256x1024 .f32) (x1 : FVec Ideal S1x2048x1024 .f32) (x2 : FVec Ideal S1x1024 .f32) :
    k0_pay6 (F := Ideal) x0 x1 x2 = mulf (broadcastTo S256x1024 (vacCol (scoreBlock x0 x1)) broadcasts_S256x1_S256x1024)
      (broadcastTo S256x1024 (shapeCast S1x1024 x2 shapeCasts_S1x1024_S1x1024) broadcasts_S1x1024_S256x1024) := rfl

/-! ## What the body stores, at an index -/

/-- The value the body stores at row r, feature o of its output block. -/
def blockOut (x0 : FVec Ideal S1x256x1024 .f32) (x1 : FVec Ideal S1x2048x1024 .f32) (x2 : FVec Ideal S1x1024 .f32) (r : Fin 256) (o : Fin 1024) : EReal :=
  (∑ s : Fin 2048, keptN (score x0 x1 r) s * x1 (ix3 (0 : Fin 1) s o))
    + (vac (score x0 x1 r) * x2 (ix2 (0 : Fin 1) o)) * Ideal.ofBits .f32 0x3C23D70A#32

theorem attended_apply (x0 : FVec Ideal S1x256x1024 .f32) (x1 : FVec Ideal S1x2048x1024 .f32) (r : Fin 256) (o : Fin 1024) :
    k0_pay5 (F := Ideal) x0 x1 (ix2 r o) = ∑ s : Fin 2048, keptN (score x0 x1 r) s * x1 (ix3 (0 : Fin 1) s o) := by
  rw [pay5_eq, pv_apply]
  refine Finset.sum_congr rfl fun s _ => ?_
  rw [pay2_apply]
  show keptNBlock (scoreBlock x0 x1) (ix2 r s) * _ = _
  rw [keptNBlock_apply, scoreRow]

theorem casimir_apply (x0 : FVec Ideal S1x256x1024 .f32) (x1 : FVec Ideal S1x2048x1024 .f32) (x2 : FVec Ideal S1x1024 .f32) (r : Fin 256) (o : Fin 1024) :
    k0_pay6 (F := Ideal) x0 x1 x2 (ix2 r o) = vac (score x0 x1 r) * x2 (ix2 (0 : Fin 1) o) := by
  rw [pay6_eq]
  show broadcastTo S256x1024 (vacCol (scoreBlock x0 x1)) broadcasts_S256x1_S256x1024 (ix2 r o)
      * broadcastTo S256x1024 (shapeCast S1x1024 x2 shapeCasts_S1x1024_S1x1024) broadcasts_S1x1024_S256x1024 (ix2 r o) = _
  rw [spread1024_apply, spreadRows_apply, vacCol_apply, scoreRow, shapeCast_self]

theorem body_apply (x0 : FVec Ideal S1x256x1024 .f32) (x1 : FVec Ideal S1x2048x1024 .f32) (x2 : FVec Ideal S1x1024 .f32) (r : Fin 256) (o : Fin 1024) :
    k0_pay1 (F := Ideal) (k0_pay5 (F := Ideal) x0 x1) (k0_pay6 (F := Ideal) x0 x1 x2) (ix3 (0 : Fin 1) r o) = blockOut x0 x1 x2 r o := by
  unfold k0_pay1
  refine (shapeCast_ab_1ab_apply _ _ (0 : Fin 1) r o).trans ?_
  show k0_pay5 (F := Ideal) x0 x1 (ix2 r o) + k0_pay6 (F := Ideal) x0 x1 x2 (ix2 r o) * Ideal.ofBits .f32 0x3C23D70A#32 = _
  rw [attended_apply, casimir_apply]
  rfl

end Cert.KernelIdeal.Block

end
-- ==== Proof.Spec.lean ====
/-
  The result both programs compute, index by index, in its two spellings, and their equality on real inputs.

  At batch b, row t, feature o, with σ(s) = (Σ_d x[b,t,d] · x[b,s,d]) / 32 the row of scores: both programs add to the
  attended value Σ_s keptN(σ)(s) · x[b,s,o] one hundredth of a second term. The kernel's second term is
  vac(σ) · (0 + Σ_d W[o,d]), the row sum taken once on the host; the reference's is Σ_d vac(σ) · W[o,d]. For real x the
  scores are real, so vac(σ) is real, and for real W the two are equal: a real factor distributes over a finite sum of reals.
-/
import Idealize.ShloMosaic.Lib.ValueIdx
import proofs.«137509_j57973468561852_1_alg».proof.Proof.Row

noncomputable section

namespace Cert.Spec

open Idealize.ShloMosaic Idealize.ShloMosaic.ValueIdx Cert.Row Cert.Consts

abbrev SX : Shape := ⟨3, ![4, 2048, 1024]⟩
abbrev SW : Shape := ⟨2, ![1024, 1024]⟩
abbrev SR : Shape := ⟨2, ![1, 1024]⟩

/-- Row t of batch b of the scores. -/
def scoreA (X : SX.Idx → EReal) (b : Fin 4) (t s : Fin 2048) : EReal :=
  (∑ d : Fin 1024, X (ix3 b t d) * X (ix3 b s d)) * Ideal.ofBits .f32 0x3D000000#32

/-- The attended value. -/
def attendedAt (X : SX.Idx → EReal) (b : Fin 4) (t : Fin 2048) (o : Fin 1024) : EReal :=
  ∑ s : Fin 2048, keptN (scoreA X b t) s * X (ix3 b s o)

/-- The kernel's spelling: the masked-out mass times a row R of weight sums. -/
def kernelAt (X : SX.Idx → EReal) (R : SR.Idx → EReal) (b : Fin 4) (t : Fin 2048) (o : Fin 1024) : EReal :=
  attendedAt X b t o + (vac (scoreA X b t) * R (ix2 (0 : Fin 1) o)) * Ideal.ofBits .f32 0x3C23D70A#32

/-- The reference's spelling: the sum of the masked-out mass times each weight. -/
def refAt (X : SX.Idx → EReal) (W : SW.Idx → EReal) (b : Fin 4) (t : Fin 2048) (o : Fin 1024) : EReal :=
  attendedAt X b t o + (∑ d : Fin 1024, vac (scoreA X b t) * W (ix2 o d)) * Ideal.ofBits .f32 0x3C23D70A#32

/-- The scores of real inputs are real. -/
theorem scoreA_real (x : SX.Idx → ℝ) (b : Fin 4) (t : Fin 2048) :
    scoreA (fun i => (x i : EReal)) b t = fun s => (((∑ d : Fin 1024, x (ix3 b t d) * x (ix3 b s d)) * (1 / 32) : ℝ) : EReal) := funext fun s => by
  have h : (∑ d : Fin 1024, ((x (ix3 b t d) : ℝ) : EReal) * ((x (ix3 b s d) : ℝ) : EReal))
      = ((∑ d : Fin 1024, x (ix3 b t d) * x (ix3 b s d) : ℝ) : EReal) :=
    (Finset.sum_congr rfl fun d _ => (EReal.coe_mul _ _).symm).trans (coe_sum Finset.univ fun d => x (ix3 b t d) * x (ix3 b s d))
  show (∑ d : Fin 1024, ((x (ix3 b t d) : ℝ) : EReal) * ((x (ix3 b s d) : ℝ) : EReal)) * Ideal.ofBits .f32 0x3D000000#32 = _
  rw [h, ofBits_inv32]
  exact (EReal.coe_mul _ _).symm

/-- On real inputs, with R the row sums of W taken from zero, the two spellings agree. -/
theorem kernelAt_eq_refAt (x : SX.Idx → ℝ) (w : SW.Idx → ℝ) (R : SR.Idx → EReal) (b : Fin 4) (t : Fin 2048) (o : Fin 1024)
    (hR : R (ix2 (0 : Fin 1) o) = zeroW + ∑ d : Fin 1024, ((w (ix2 o d) : ℝ) : EReal)) :
    kernelAt (fun i => (x i : EReal)) R b t o = refAt (fun i => (x i : EReal)) (fun i => (w i : EReal)) b t o := by
  unfold kernelAt refAt
  rw [hR, scoreA_real x b t]
  show attendedAt _ b t o + (vac _ * (zeroW + ∑ d : Fin 1024, ((w (ix2 o d) : ℝ) : EReal))) * _
      = attendedAt _ b t o + (∑ d : Fin 1024, vac _ * ((w (ix2 o d) : ℝ) : EReal)) * _
  rw [vac_mul_sum (fun s => (∑ d : Fin 1024, x (ix3 b t d) * x (ix3 b s d)) * (1 / 32)) (fun d => w (ix2 o d))]

end Cert.Spec

end
-- ==== Proof.KernelWhole.lean ====
/-
  The kernel's result array after the run, as one function of the two argument arrays.

  Grid point t = (b, qi) writes back rows 256·qi … 256·qi + 255 of batch b of the result; its query block is the same rows
  of the first argument, its key/value block all 2048 rows of batch b, its weight row the row sums of the second argument.
  The 32 points' blocks tile the result, so the result at (b, t, o) is the body's value for row t of batch b:
  Σ_s keptN(σ)(s) · x[b,s,o] + (vac(σ) · (0 + Σ_d W[o,d])) · 0.01 with σ(s) = (Σ_d x[b,t,d] · x[b,s,d]) / 32.
-/
import proofs.«137509_j57973468561852_1_alg».proof.Proof.KernelIdealFrame
import proofs.«137509_j57973468561852_1_alg».proof.Proof.KernelBlock
import proofs.«137509_j57973468561852_1_alg».proof.Proof.Spec
import Idealize.ShloMosaic.Lib.Pipeline.Value
import Idealize.ShloMosaic.Lib.StableHlo.Run
import Idealize.ShloMosaic.Lib.ValueLayout
import Idealize.ShloMosaic.PureOps.Ideal.Laws

set_option maxRecDepth 16384

noncomputable section

namespace Cert.KernelIdeal.Whole

open Cert.KernelIdeal Cert.KernelIdeal.Gen Cert.KernelIdeal.Frame Cert.KernelIdeal.Block
open Idealize.ShloMosaic Idealize.ShloMosaic.TcCoe Idealize.SL.Sem Idealize.ShloMosaic.ValueIdx Cert.Row
open Idealize.ShloMosaic.Pipeline (Dat)
open Cert.Spec (scoreA kernelAt attendedAt)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The result, index by index -/

/-- The whole result array, from the first argument X and the row R of weight sums. -/
def result (X : S4x2048x1024.Idx → EReal) (R : S1x1024.Idx → EReal) : S4x2048x1024.Idx → EReal :=
  fun i => Cert.Spec.kernelAt X R (i 0) (i 1) (i 2)

/-! ## The windows' index maps over the grid -/

theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (2 : Fin 3) = 0 ∧ win0_3.index t (0 : Fin 3) ≤ 3 ∧ win0_3.index t (1 : Fin 3) ≤ 7 :=
  (by decide +kernel : ∀ t : Fin grid0.N, _)

theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-! ## Each input block as rows of its array -/

theorem qblk_apply (c : Dev nD) (t : Fin cfg0.N) (r : Fin 256) (d : Fin 1024) (b : Fin 4) (tt : Fin 2048)
    (hb : b.val = win0_3.index t (0 : Fin 3)) (ht : tt.val = win0_3.index t (1 : Fin 3) * 256 + r.val) :
    (iblk m c 0 t : FVec Ideal S1x256x1024 .f32) (ix3 (0 : Fin 1) r d) = (V m c main_arg0 : S4x2048x1024.Idx → EReal) (ix3 b tt d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 256 + 1 * r.val = tt.val; omega
  | ⟨2, _⟩ => show win0_0.index t (2 : Fin 3) * 1024 + 1 * d.val = d.val; omega

theorem kvblk_apply (c : Dev nD) (t : Fin cfg0.N) (s : Fin 2048) (d : Fin 1024) (b : Fin 4)
    (hb : b.val = win0_3.index t (0 : Fin 3)) :
    (iblk m c 1 t : FVec Ideal S1x2048x1024 .f32) (ix3 (0 : Fin 1) s d) = (V m c main_arg0 : S4x2048x1024.Idx → EReal) (ix3 b s d) := by
  obtain ⟨-, -, -, e0, e1, e2, -⟩ := idx_facts t
  unfold iblk
  rw [View.read_apply]
  show V m c main_arg0 _ = V m c main_arg0 _
  congr 1
  funext a
  apply Fin.ext
  match a with
  | ⟨0, _⟩ => show win0_1.index t (0 : Fin 3) * 1 + 1 * 0 = b.val; omega
  | ⟨1, _⟩ => show win0_1.index t (1 : Fin 3) * 2048 + 1 * s.val = s.val; omega
  | ⟨2, _⟩ => show win0_1.index t (2 : Fin 3) * 1024 + 1 * d.val = d.val; omega

theorem wblk_apply (c : Dev nD) (t : Fin cfg0.N) (o : Fin 1024) :
    (iblk m c 2 t : FVec Ideal S1x1024 .f32) (ix2 (0 : Fin 1) o) = (V m c main_v1 : S1x1024.Idx → EReal) (ix2 (0 : Fin 1) o) := by
  obtain ⟨-, -, -, -, -, -, e0, e1, -⟩ := idx_facts t
  unfold iblk
  rw [View.read_apply]
  show V m c main_v1 _ = V m c main_v1 _
  congr 1
  funext a
  apply Fin.ext
  match a with
  | ⟨0, _⟩ => show win0_2.index t (0 : Fin 2) * 1 + 1 * 0 = 0; omega
  | ⟨1, _⟩ => show win0_2.index t (1 : Fin 2) * 1024 + 1 * o.val = o.val; omega

/-! ## What a point writes back, the cover, and the array after the run -/

/-- What point t writes back is block t of the result. -/
theorem flushed_eq (c : Dev nD) (t : Fin cfg0.N) :
    (dats m 0 c).flushed 3 t = ((cfg0.win 3).blk t).view.read (Elt Ideal) (result (V m c main_arg0) (V m c main_v1)) := by
  show (cfg0.win 3).cut (grid0.coords t) ((dats m 0 c).after 3 t) = _
  rw [after3]
  unfold outBlock
  rw [View.canon_unit_zero hz3]
  simp only [View.ld_unit_zero (S := S1x256x1024) hz3, View.ld_unit_zero (S := S1x2048x1024) hz3, View.ld_unit_zero (S := S1x1024) hz2]
  obtain ⟨-, -, -, -, -, -, -, -, e2, l0, l1⟩ := idx_facts t
  funext j
  obtain ⟨u, r, o, rfl⟩ : ∃ (u : Fin 1) (r : Fin 256) (o : Fin 1024), j = ix3 u r o := ⟨j 0, j 1, j 2, eq_ix3 j⟩
  obtain rfl : u = 0 := Subsingleton.elim _ _
  have hemb : ((cfg0.win 3).blk t).view.emb (ix3 (0 : Fin 1) r o)
      = (ix3 (⟨win0_3.index t (0 : Fin 3), by omega⟩ : Fin 4) (⟨win0_3.index t (1 : Fin 3) * 256 + r.val, by omega⟩ : Fin 2048) o : S4x2048x1024.Idx) := by
    funext a
    apply Fin.ext
    match a with
    | ⟨0, _⟩ => show win0_3.index t (0 : Fin 3) * 1 + 1 * 0 = win0_3.index t (0 : Fin 3); omega
    | ⟨1, _⟩ => show win0_3.index t (1 : Fin 3) * 256 + 1 * r.val = win0_3.index t (1 : Fin 3) * 256 + r.val; omega
    | ⟨2, _⟩ => show win0_3.index t (2 : Fin 3) * 1024 + 1 * o.val = o.val; omega
  refine (body_apply (iblk m c 0 t) (iblk m c 1 t) (iblk m c 2 t) r o).trans ?_
  rw [View.read_apply]
  show _ = result (V m c main_arg0) (V m c main_v1) (((cfg0.win 3).blk t).view.emb (ix3 (0 : Fin 1) r o))
  rw [hemb]
  show blockOut _ _ _ r o = kernelAt (V m c main_arg0) (V m c main_v1) ⟨win0_3.index t (0 : Fin 3), by omega⟩ ⟨win0_3.index t (1 : Fin 3) * 256 + r.val, by omega⟩ o
  have hs : score (iblk m c 0 t) (iblk m c 1 t) r
      = scoreA (V m c main_arg0) ⟨win0_3.index t (0 : Fin 3), by omega⟩ ⟨win0_3.index t (1 : Fin 3) * 256 + r.val, by omega⟩ := funext fun s => by
    unfold score scoreA
    refine congrArg (· * _) (Finset.sum_congr rfl fun d _ => ?_)
    rw [qblk_apply m c t r d ⟨win0_3.index t (0 : Fin 3), by omega⟩ ⟨win0_3.index t (1 : Fin 3) * 256 + r.val, by omega⟩ rfl rfl,
      kvblk_apply m c t s d ⟨win0_3.index t (0 : Fin 3), by omega⟩ rfl]
  unfold blockOut kernelAt attendedAt
  rw [hs, wblk_apply m c t o]
  refine congrArg (· + _) (Finset.sum_congr rfl fun s _ => ?_)
  rw [kvblk_apply m c t s o ⟨win0_3.index t (0 : Fin 3), by omega⟩ rfl]

/-- An index of the result is in point t's block iff each coordinate is in the block's range on its axis. -/
theorem mem_blk (t : Fin cfg0.N) (i : S4x2048x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v2).slice (win0_3.rect t)).set ↔ _
  rw [View.set_slice_whole, Rect.mem_set_unit]
  exact Iff.rfl

/-- Every index of the result is in some point's block: batch b, rows 256·(t / 256) onward. -/
theorem cover (i : S4x2048x1024.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- The result array after the run. -/
theorem final (c : Dev nD) : (dats m 0 c).arrAt 3 cfg0.N = result (V m c main_arg0) (V m c main_v1) :=
  (dats m 0 c).arrAt_eq_of_cover 3 (result (V m c main_arg0) (V m c main_v1)) (fun t _ => flushed_eq m c t) cover

end Cert.KernelIdeal.Whole

end
-- ==== Proof.RefValue.lean ====
/-
  The reference's result, read one host operation at a time, is the reference's spelling of the common result.

  Stage by stage at batch b, row t: the scaled products are the row of scores σ (the host's 1 / sqrt(1024) is 1/32); the
  row maximum, taken with minus infinity once more, is the row maximum; the exponentials, their sum from zero, the
  probabilities, the mask, the two selections and their sums from zero are the row chain of σ; the last two products are
  the attended value and Σ_d vac(σ) · W[o,d].
-/
import proofs.«137509_j57973468561852_1_alg».proof.Proof.Gen.ReferenceIdeal.Read
import proofs.«137509_j57973468561852_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Row Cert.Consts Cert.Spec

variable (X : (⟨S4x2048x1024, .f32⟩ : BufTy).Contents (Elt Ideal)) (W : (⟨S1024x1024, .f32⟩ : BufTy).Contents (Elt Ideal))
variable (b : Fin 4) (t s : Fin 2048) (o : Fin 1024)

/-! ## The operations' index maps at literal coordinates -/

theorem lidx2 (k : Fin 1024) : lidx_main_v2 (ix3 b t s) k = ix3 b t k := funext fun a => by match a with | ⟨0, _⟩ => rfl | ⟨1, _⟩ => rfl | ⟨2, _⟩ => rfl
theorem ridx2 (k : Fin 1024) : ridx_main_v2 (ix3 b t s) k = ix3 b s k := funext fun a => by match a with | ⟨0, _⟩ => rfl | ⟨1, _⟩ => rfl | ⟨2, _⟩ => rfl
theorem idxCol (u : Fin 1) : idx_main_v8 (ix3 b t u) = ix2 b t := funext fun a => by match a with | ⟨0, _⟩ => rfl | ⟨1, _⟩ => rfl
theorem idxSpread : idx_main_v9 (ix3 b t s) = ix3 b t (0 : Fin 1) := funext fun a => by match a with | ⟨0, _⟩ => rfl | ⟨1, _⟩ => rfl | ⟨2, _⟩ => rfl
theorem idxLane (k : Fin 2048) : idx_main_v12 (ix2 b t) k = ix3 b t k := funext fun a => by match a with | ⟨0, _⟩ => rfl | ⟨1, _⟩ => rfl | ⟨2, _⟩ => rfl
theorem idxSpreadO : idx_main_v21 (ix3 b t o) = ix3 b t (0 : Fin 1) := funext fun a => by match a with | ⟨0, _⟩ => rfl | ⟨1, _⟩ => rfl | ⟨2, _⟩ => rfl
theorem lidx22 (k : Fin 1024) : lidx_main_v22 (ix3 b t o) k = ix3 b t k := funext fun a => by match a with | ⟨0, _⟩ => rfl | ⟨1, _⟩ => rfl | ⟨2, _⟩ => rfl
theorem ridx22 (k : Fin 1024) : ridx_main_v22 (ix3 b t o) k = ix2 o k := funext fun a => by match a with | ⟨0, _⟩ => rfl | ⟨1, _⟩ => rfl
theorem lidx30 (k : Fin 2048) : lidx_main_v30 (ix3 b t o) k = ix3 b t k := funext fun a => by match a with | ⟨0, _⟩ => rfl | ⟨1, _⟩ => rfl | ⟨2, _⟩ => rfl
theorem ridx30 (k : Fin 2048) : ridx_main_v30 (ix3 b t o) k = ix3 b k o := funext fun a => by match a with | ⟨0, _⟩ => rfl | ⟨1, _⟩ => rfl | ⟨2, _⟩ => rfl

/-! ## The stages -/

/-- The host's scale is 1/32. -/
theorem scale (i : S_.Idx) : val_main_v1 (F := Ideal) i = Ideal.ofBits .f32 0x3D000000#32 := scale_eq

/-- The scaled products are the row of scores. -/
theorem st_scores : val_main_v4 (F := Ideal) X (ix3 b t s) = scoreA X b t s := by
  rw [val_main_v4_apply, val_main_v2_apply, val_main_v3_apply, scale]
  unfold scoreA
  exact congrArg (· * _) (Finset.sum_congr rfl fun k _ => by rw [lidx2, ridx2])

theorem lift_lane (k : Fin 2048) :
    (by decide : S4x2048x2048.Reduces [2] S4x2048).lift (ix2 b t) k = (ix3 b t k : S4x2048x2048.Idx) := funext fun a => by match a with | ⟨0, _⟩ => rfl | ⟨1, _⟩ => rfl | ⟨2, _⟩ => rfl

/-- The row maximum. -/
theorem st_max : val_main_v5 (F := Ideal) X (ix2 b t) = rmax (scoreA X b t) := by
  unfold val_main_v5
  refine (Host.reduce_eq_fold_single FloatOps.maximumf _ _ reducesTo_S4x2048x2048_S4x2048_d2 (by decide) h_S_ (ix2 b t)).trans ?_
  unfold rmax
  show Finset.univ.fold max (Ideal.ofBits .f32 0xFF800000#32) _ = _
  exact congrArg (Finset.univ.fold max _) (funext fun k =>
    (congrArg (val_main_v4 (F := Ideal) X) (lift_lane b t k)).trans (st_scores X b t k))

/-- The maximum with minus infinity once more. -/
theorem st_max' : val_main_v7 (F := Ideal) X (ix2 b t) = rmax (scoreA X b t) := by
  rw [val_main_v7_apply, st_max]
  exact max_neg_inf _

/-- The exponentials. -/
theorem st_exp : val_main_v11 (F := Ideal) X (ix3 b t s) = ex (scoreA X b t) s := by
  show Ideal.exp (val_main_v4 (F := Ideal) X (ix3 b t s) - val_main_v9 (F := Ideal) X (ix3 b t s)) = _
  rw [st_scores, val_main_v9_apply, idxSpread, val_main_v8_apply, idxCol, st_max']
  rfl

/-- Their sum, from zero. -/
theorem st_sum : val_main_v12 (F := Ideal) X (ix2 b t) = ∑ k : Fin 2048, ex (scoreA X b t) k := by
  rw [val_main_v12_apply]
  show Ideal.ofBits .f32 0x00000000#32 + _ = _
  rw [ofBits_zero, zero_add]
  exact Finset.sum_congr rfl fun k _ => by rw [idxLane, st_exp]

/-- The probabilities. -/
theorem st_prob : val_main_v15 (F := Ideal) X (ix3 b t s) = pr (scoreA X b t) s := by
  show Ideal.div (val_main_v11 (F := Ideal) X (ix3 b t s)) (val_main_v14 (F := Ideal) X (ix3 b t s)) = _
  rw [st_exp, val_main_v14_apply, show idx_main_v14 (ix3 b t s) = ix3 b t (0 : Fin 1) from funext fun a => by match a with | ⟨0, _⟩ => rfl | ⟨1, _⟩ => rfl | ⟨2, _⟩ => rfl,
    val_main_v13_apply, show idx_main_v13 (ix3 b t (0 : Fin 1)) = ix2 b t from funext fun a => by match a with | ⟨0, _⟩ => rfl | ⟨1, _⟩ => rfl, st_sum]
  rfl

/-- The mask. -/
theorem st_mask : val_main_v17 (F := Ideal) X (ix3 b t s) = msk (scoreA X b t) s := by
  show Ideal.cmp .olt (val_main_v15 (F := Ideal) X (ix3 b t s)) (val_main_v16 (F := Ideal) (ix3 b t s)) = _
  rw [st_prob, val_main_v16_apply]
  rfl

/-- The probabilities under the threshold, zero elsewhere. -/
theorem st_below : val_main_v18 (F := Ideal) X (ix3 b t s) = Scalar.select (msk (scoreA X b t) s) (pr (scoreA X b t) s) zeroW := by
  rw [val_main_v18_apply, st_mask, st_prob, val_main_call0_v1_apply]
  rfl

/-- The masked-out mass, from zero. -/
theorem st_vac : val_main_v19 (F := Ideal) X (ix2 b t) = vac (scoreA X b t) := by
  rw [val_main_v19_apply]
  show Ideal.ofBits .f32 0x00000000#32 + _ = _
  rw [ofBits_zero, zero_add]
  unfold vac
  exact Finset.sum_congr rfl fun k _ => by
    rw [show idx_main_v19 (ix2 b t) k = ix3 b t k from funext fun a => by match a with | ⟨0, _⟩ => rfl | ⟨1, _⟩ => rfl | ⟨2, _⟩ => rfl, st_below]

/-- The probabilities kept. -/
theorem st_kept : val_main_v23 (F := Ideal) X (ix3 b t s) = kept (scoreA X b t) s := by
  rw [val_main_v23_apply, st_mask, st_prob, val_main_call1_v1_apply]
  rfl

/-- Their sum from zero, plus the small constant. -/
theorem st_keptSum (u : Fin 1) : val_main_v27 (F := Ideal) X (ix3 b t u) = (∑ k : Fin 2048, kept (scoreA X b t) k) + eps := by
  rw [val_main_v27_apply]
  show val_main_v25 (F := Ideal) X (ix3 b t u) + val_main_v26 (F := Ideal) (ix3 b t u) = _
  rw [val_main_v25_apply, show idx_main_v25 (ix3 b t u) = ix2 b t from funext fun a => by match a with | ⟨0, _⟩ => rfl | ⟨1, _⟩ => rfl, val_main_v24_apply, val_main_v26_apply]
  show (Ideal.ofBits .f32 0x00000000#32 + _) + Ideal.ofBits .f32 0x3089705F#32 = _
  rw [ofBits_zero, zero_add]
  exact congrArg (· + _) (Finset.sum_congr rfl fun k _ => by
    rw [show idx_main_v24 (ix2 b t) k = ix3 b t k from funext fun a => by match a with | ⟨0, _⟩ => rfl | ⟨1, _⟩ => rfl | ⟨2, _⟩ => rfl, st_kept])

/-- The kept probabilities renormalised. -/
theorem st_keptN : val_main_v29 (F := Ideal) X (ix3 b t s) = keptN (scoreA X b t) s := by
  show Ideal.div (val_main_v23 (F := Ideal) X (ix3 b t s)) (val_main_v28 (F := Ideal) X (ix3 b t s)) = _
  rw [st_kept, val_main_v28_apply, show idx_main_v28 (ix3 b t s) = ix3 b t (0 : Fin 1) from funext fun a => by match a with | ⟨0, _⟩ => rfl | ⟨1, _⟩ => rfl | ⟨2, _⟩ => rfl, st_keptSum]
  rfl

/-- The attended value. -/
theorem st_attended : val_main_v30 (F := Ideal) X (ix3 b t o) = attendedAt X b t o := by
  rw [val_main_v30_apply]
  unfold attendedAt
  exact Finset.sum_congr rfl fun k _ => by rw [lidx30, ridx30, st_keptN]

/-- The masked-out mass against the weights. -/
theorem st_casimir : val_main_v22 (F := Ideal) X W (ix3 b t o) = ∑ d : Fin 1024, vac (scoreA X b t) * W (ix2 o d) := by
  rw [val_main_v22_apply]
  exact Finset.sum_congr rfl fun k _ => by
    rw [lidx22, ridx22, val_main_v21_apply, idxSpreadO, val_main_v20_apply, show idx_main_v20 (ix3 b t (0 : Fin 1)) = ix2 b t from funext fun a => by match a with | ⟨0, _⟩ => rfl | ⟨1, _⟩ => rfl, st_vac]

/-- The reference's result is the reference's spelling of the common result. -/
theorem result_apply : val_main_v33 (F := Ideal) X W (ix3 b t o) = refAt X W b t o := by
  show val_main_v30 (F := Ideal) X (ix3 b t o) + val_main_v22 (F := Ideal) X W (ix3 b t o) * val_main_v31 (F := Ideal) (ix3 b t o) = _
  rw [st_attended, st_casimir, val_main_v31_apply]
  rfl

end Cert.ReferenceIdeal.RefValue

end
-- ==== Proof.PreReal.lean ====
/-
  The precondition, decoded: every entry of both arguments is a real number.

  The precondition says that the absolute value of every entry of each argument is below plus infinity. On the extended
  reals the absolute value of minus infinity and of plus infinity is plus infinity, which is not below itself; so an entry
  that passes is neither, and is a real.
-/
import proofs.«137509_j57973468561852_1_alg».proof.Pre_finite_inputs
import proofs.«137509_j57973468561852_1_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.PreReal

open Idealize.ShloMosaic Cert.Pre_finite_inputs

instance : Subsingleton S_.Idx := ⟨fun a b => funext fun d => d.elim0⟩

theorem ofBits_inf : Ideal.ofBits .f32 0x7F800000#32 = ⊤ := by
  simp [Ideal.ofBits, Ideal.ieee]

/-- An extended real whose absolute value is below plus infinity is a real. -/
theorem real_of_abs_lt (x : EReal) (h : Ideal.cmp .olt (max x (-x)) (Ideal.ofBits .f32 0x7F800000#32) = 1#1) : ∃ r : ℝ, x = (r : EReal) := by
  rw [ofBits_inf] at h
  induction x using EReal.rec with
  | bot =>
    exfalso
    rw [EReal.neg_bot, max_eq_right bot_le] at h
    simp [Ideal.cmp] at h
  | coe r => exact ⟨r, rfl⟩
  | top =>
    exfalso
    rw [max_eq_left (le_top)] at h
    simp [Ideal.cmp] at h

/-- Under the precondition every entry of both arguments is a real. -/
theorem reals_of_pre (a0 : FVec Ideal S4x2048x1024 .f32) (a1 : FVec Ideal S1024x1024 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨hx, hw⟩ := IntOp.andi_eq_one.1 h0
  exact ⟨fun i => real_of_abs_lt _ (Host.reduce_andi_all _ _ _ _ _ hx i), fun i => real_of_abs_lt _ (Host.reduce_andi_all _ _ _ _ _ hw i)⟩

end Cert.PreReal

end
-- ==== Proof.Algebraic.lean ====
/-
  The algebraic conjunct: from memories agreeing on the two arguments, under the precondition, both idealized programs run
  and end with equal results, element by element, the arguments unchanged.

  The kernel's result array ends at the kernel's spelling of the common result, with the first argument as launched and
  the row of weight sums the host computed before the call: entry o is 0 + Σ_d W[o,d]. The reference's result is its own
  spelling. Under the precondition every entry of both arguments is a real, and on real inputs the two spellings agree.
-/
import proofs.«137509_j57973468561852_1_alg».proof.Defs
import proofs.«137509_j57973468561852_1_alg».proof.Proof.KernelWhole
import proofs.«137509_j57973468561852_1_alg».proof.Proof.RefValue
import proofs.«137509_j57973468561852_1_alg».proof.Proof.PreReal
import Idealize.ShloMosaic.Lib.StableHlo.Run
import Idealize.ShloMosaic.Lib.ValueLayout
import Idealize.ShloMosaic.PureOps.Ideal.Laws

set_option maxRecDepth 16384

noncomputable section

namespace Cert.KernelIdeal.RowSums

open Cert.KernelIdeal Cert.KernelIdeal.Gen Cert.KernelIdeal.Frame
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The array of the weight-row window as the region finds it: the host's row sums of the second argument, as one row. -/
theorem V_rowsums (c : Dev nD) : (V m c main_v1 : S1x1024.Idx → EReal) =
    shapeCast S1x1024 (Host.reduceAdd (F := Ideal) (m ((c : Thread nD τ).loc main_arg1) : FVec Ideal S1024x1024 .f32)
      (constant (F := Ideal) S_ .f32 0x00000000#32) reducesTo_S1024x1024_S1024_d1 h_S_) shapeCasts_S1024_S1x1024 := by
  dsimp only [V]
  simp only [hostOps0, List.flatten_cons, List.flatten_nil, List.append_nil, List.cons_append, List.nil_append]
  after_results
  rfl

/-- Entry o of that row is the sum of row o of the second argument, from zero. -/
theorem rowsum_apply (c : Dev nD) (o : Fin 1024) :
    (V m c main_v1 : S1x1024.Idx → EReal) (ix2 (0 : Fin 1) o)
      = Cert.Row.zeroW + ∑ d : Fin 1024, (show S1024x1024.Idx → EReal from m ((c : Thread nD τ).loc main_arg1)) (ix2 o d) := by
  rw [V_rowsums, shapeCast_a_1a_apply]
  simp only [Host.reduceAdd, Ideal.hostReduceAdd_def]
  rw [Ideal.hostReduceAdd_single reducesTo_S1024x1024_S1024_d1 (by decide)]
  refine congrArg (_ + ·) (Finset.sum_congr rfl fun k _ => ?_)
  exact congrArg _ (funext fun a => Fin.ext (by match a with | ⟨0, _⟩ => rfl | ⟨1, _⟩ => rfl))

end Cert.KernelIdeal.RowSums

namespace Cert.Proof.Algebraic

open Idealize.ShloMosaic Idealize.ShloMosaic.TcCoe Idealize.SL.Sem Idealize.ShloMosaic.ValueIdx
open Cert.KernelIdeal Cert.KernelIdeal.Gen Cert.KernelIdeal.Frame

variable (m : (ℓ : Loc nD τ sig) → Buf (Elt Ideal) ℓ) (ρ : Dev nD → PrngReg)

/-- The kernel's run: the result array at the kernel's spelling of the result, the arguments unchanged. -/
theorem kernel_run : θ_run defs (onTc (τ := τ) (main (F := Ideal))) ⟨m, fun _ => 0, ρ⟩ (fun r => ∀ c : Dev nD,
      r.2.mem ((c.tc : Thread nD τ).loc main_v2) = Cert.KernelIdeal.Whole.result (V m c main_arg0) (V m c main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 3).trans (Cert.KernelIdeal.Whole.final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main (F := Ideal) m ρ)

/-- Under the precondition the reference's result term on the kernel's arguments is the kernel's result. -/
theorem result_eq (c : Dev nD)
    (hpre : Cert.Pre_finite_inputs.fn (F := Ideal) (m ((c.tc : Thread nD τ).loc main_arg0)) (m ((c.tc : Thread nD τ).loc main_arg1)) = fun _ => 1#1) :
    Cert.ReferenceIdeal.Read.val_main_v33 (F := Ideal) (m ((c.tc : Thread nD τ).loc main_arg0)) (m ((c.tc : Thread nD τ).loc main_arg1))
      = Cert.KernelIdeal.Whole.result (V m c main_arg0) (V m c main_v1) := by
  obtain ⟨hx, hw⟩ := Cert.PreReal.reals_of_pre _ _ hpre
  choose x hx using hx
  choose w hw using hw
  have hX : (m ((c.tc : Thread nD τ).loc main_arg0) : Cert.Spec.SX.Idx → EReal) = fun i => (x i : EReal) := funext hx
  have hW : (m ((c.tc : Thread nD τ).loc main_arg1) : Cert.Spec.SW.Idx → EReal) = fun i => (w i : EReal) := funext hw
  funext i
  obtain ⟨b, t, o, rfl⟩ : ∃ (b : Fin 4) (t : Fin 2048) (o : Fin 1024), i = ix3 b t o := ⟨i 0, i 1, i 2, eq_ix3 i⟩
  rw [Cert.ReferenceIdeal.RefValue.result_apply]
  show Cert.Spec.refAt _ _ b t o = Cert.Spec.kernelAt (V m c main_arg0) (V m c main_v1) b t o
  rw [V_main_arg0, hX, hW]
  exact (Cert.Spec.kernelAt_eq_refAt x w (V m c main_v1) b t o
    ((Cert.KernelIdeal.RowSums.rowsum_apply m c o).trans (congrArg (_ + ·) (Finset.sum_congr rfl fun d _ => hw _)))).symm

/-- The two idealized programs end with equal results. -/
theorem algebraic : Cert.algebraic_KernelIdeal_ReferenceIdeal := by
  intro m ρ m' ρ' hpre hagree
  refine ⟨fun c => Cert.KernelIdeal.Whole.result (V m c main_arg0) (V m c main_v1), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2]
  exact result_eq m c (hpre c)

end Cert.Proof.Algebraic

end
-- ==== Proof.lean ====
/-
  A sparse-attention kernel against its jnp reference, on the extended reals.

  Both programs take x : [4, 2048, 1024] and W : [1024, 1024]. For each batch b and query row t they form the scores
  σ(s) = (Σ_d x[b,t,d] · x[b,s,d]) / 32 against every key row s, the softmax p of σ, split p at the threshold 0.01 into the
  small probabilities (whose sum is vac) and the kept ones (renormalised by their sum plus 1e-9), and return
  Σ_s keptN(s) · x[b,s,o] + casimir(o) / 100, where the reference's casimir(o) is Σ_d vac · W[o,d] and the kernel's is
  vac · Σ_d W[o,d], the row sums of W taken once on the host before the call.

  The kernel runs on a 4 × 8 grid: point (b, qi) reads rows 256·qi … of batch b as queries and all of batch b as keys and
  values, both from the one array x, and writes the same rows of the result. Three things differ between the two texts:
  the scale (the reference divides 1 by the square root of 1024 on the host, the kernel multiplies by the literal 1/32: 1024
  is 32 squared); one more maximum with minus infinity in the reference's softmax (the bottom element); and the place of
  the sum over d in casimir, which is the distributive law and holds on the extended reals because vac and W are real:
  W by the precondition, vac because for real x the scores are real, their maximum over a non-empty row is real, the
  exponentials are positive reals, and so on down the row.

  Proof/KernelFrame, Proof/KernelIdealFrame: each kernel program's run (the two windows on x hold half a share of it each).
  Proof/Consts, Proof/Row, Proof/Spec: the constants, one row's chain with its finiteness, the two spellings and their equality.
  Proof/KernelBlock, Proof/KernelWhole: the kernel's body at an index, and its blocks assembled into the result array.
  Proof/RefValue: the reference's operations at an index. Proof/PreReal: the precondition read as "every entry is a real".
  Proof/Frames, Proof/Algebraic: the conjuncts.
-/
import proofs.«137509_j57973468561852_1_alg».proof.Defs
import proofs.«137509_j57973468561852_1_alg».proof.Proof.Gen.Kernel
import proofs.«137509_j57973468561852_1_alg».proof.Proof.Gen.Kernel.Skeleton
import proofs.«137509_j57973468561852_1_alg».proof.Proof.Gen.Kernel.Launch
import proofs.«137509_j57973468561852_1_alg».proof.Proof.Gen.Kernel.Points
import proofs.«137509_j57973468561852_1_alg».proof.Proof.Gen.KernelIdeal
import proofs.«137509_j57973468561852_1_alg».proof.Proof.Gen.KernelIdeal.Skeleton
import proofs.«137509_j57973468561852_1_alg».proof.Proof.Gen.KernelIdeal.Launch
import proofs.«137509_j57973468561852_1_alg».proof.Proof.Gen.KernelIdeal.Points
import proofs.«137509_j57973468561852_1_alg».proof.Proof.Gen.ReferenceIdeal
import proofs.«137509_j57973468561852_1_alg».proof.Proof.Gen.Pre_finite_inputs
import proofs.«137509_j57973468561852_1_alg».proof.Proof.Frames
import proofs.«137509_j57973468561852_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Algebraic.algebraic⟩

end Cert.Proof

end
